-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg2 : FVec F S100000 .f32) (main_arg3 : FVec F S50000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_cst_6 : FVec F S_ .f32 := constant S_ .f32 0x00000000#32
  let main_v19 : FVec F S100000 .f32 := broadcastInDim S100000 ![] bcast_S_S100000 main_cst_6
  let main_v20 : IVec S100000 1 := cmpf .ogt main_arg2 main_v19
  let main_c_7 : IVec S_ 1 := constantI S_ 1 1#1
  let main_v21 : IVec S_ 1 := (fun x v => Host.reduce IntOp.andi x v reducesTo_S100000_S_d0 h_S_) main_v20 main_c_7
  let main_v22 : IVec S_ 1 := andi main_v18 main_v21
  let main_cst_8 : FVec F S_ .f32 := constant S_ .f32 0x00000000#32
  let main_v23 : FVec F S50000 .f32 := broadcastInDim S50000 ![] bcast_S_S50000 main_cst_8
  let main_v24 : IVec S50000 1 := cmpf .ogt main_arg3 main_v23
  let main_c_9 : IVec S_ 1 := constantI S_ 1 1#1
  let main_v25 : IVec S_ 1 := (fun x v => Host.reduce IntOp.andi x v reducesTo_S50000_S_d0 h_S_) main_v24 main_c_9
  let main_v26 : IVec S_ 1 := andi main_v22 main_v25
  main_v26

def fn {F : FTy → Type} [FloatOps F] (main_arg0 : FVec F S150000x64 .f32) (main_arg1 : FVec F S100000 .f32) (main_arg2 : FVec F S100000 .f32) (main_arg3 : FVec F S50000 .f32) (main_arg4 : IVec S2000000 32) (main_arg5 : IVec S2000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_v13 main_v16
-- ==== Kernel.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩
abbrev S2000000x1 : Shape := ⟨2, ![2000000, 1]⟩
abbrev S2000000x64 : Shape := ⟨2, ![2000000, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 77
  | .vmem => 8
  | .smem => 0
  | _ => 0

abbrev bufTy : (tb : Table) → Fin (tcTables nBuf tb) → BufTy
  | .hbm, ⟨0, _⟩ => ⟨S150000x64, .f32⟩
  | .hbm, ⟨1, _⟩ => ⟨S100000, .f32⟩
  | .hbm, ⟨2, _⟩ => ⟨S100000, .f32⟩
  | .hbm, ⟨3, _⟩ => ⟨S50000, .f32⟩
  | .hbm, ⟨4, _⟩ => ⟨S2000000, .i32⟩
  | .hbm, ⟨5, _⟩ => ⟨S2000000, .i32⟩
  | .hbm, ⟨6, _⟩ => ⟨S100000x64, .f32⟩
  | .hbm, ⟨7, _⟩ => ⟨S50000x64, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x64, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000, .f32⟩
  | .hbm, ⟨53, _⟩ => ⟨S2000000, .f32⟩
  | .hbm, ⟨54, _⟩ => ⟨S2000000, .f32⟩
  | .hbm, ⟨55, _⟩ => ⟨S2000000, .f32⟩
  | .hbm, ⟨56, _⟩ => ⟨S_, .f32⟩
  | .hbm, ⟨57, _⟩ => ⟨S2000000, .f32⟩
  | .hbm, ⟨58, _⟩ => ⟨S2000000, .f32⟩
  | .hbm, ⟨59, _⟩ => ⟨S2000000x1, .f32⟩
  | .hbm, ⟨60, _⟩ => ⟨S2000000x1, .f32⟩
  | .hbm, ⟨61, _⟩ => ⟨S2000000, .f32⟩
  | .hbm, ⟨62, _⟩ => ⟨S2000000, .f32⟩
  | .hbm, ⟨63, _⟩ => ⟨S2000000x1, .f32⟩
  | .hbm, ⟨64, _⟩ => ⟨S2000000x64, .f32⟩
  | .hbm, ⟨65, _⟩ => ⟨S2000000x64, .f32⟩
  | .hbm, ⟨66, _⟩ => ⟨S_, .f32⟩
  | .hbm, ⟨67, _⟩ => ⟨S100000x64, .f32⟩
  | .hbm, ⟨68, _⟩ => ⟨S2000000x1, .i32⟩
  | .hbm, ⟨69, _⟩ => ⟨S100000x64, .f32⟩
  | .hbm, ⟨70, _⟩ => ⟨S2000000x64, .f32⟩
  | .hbm, ⟨71, _⟩ => ⟨S2000000x64, .f32⟩
  | .hbm, ⟨72, _⟩ => ⟨S_, .f32⟩
  | .hbm, ⟨73, _⟩ => ⟨S50000x64, .f32⟩
  | .hbm, ⟨74, _⟩ => ⟨S2000000x1, .i32⟩
  | .hbm, ⟨75, _⟩ => ⟨S50000x64, .f32⟩
  | .hbm, ⟨76, _⟩ => ⟨S150000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S150000x64_S100000x64_0_0 : S150000x64.Slices ![0, 0] S100000x64
  slices_S150000x64_S50000x64_100000_0 : S150000x64.Slices ![100000, 0] S50000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S2000000x1_S2000000 : S2000000x1.ShapeCasts S2000000
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  scatter_S100000x64_S2000000x1_S2000000x64_1_0_0_1_wf : ScatterDims.WF S100000x64 S2000000x1 S2000000x64 [1] [0] [0] 1
  scatter_S50000x64_S2000000x1_S2000000x64_1_0_0_1_wf : ScatterDims.WF S50000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S2000000x64.size a
  hwx0_0 : ∀ i : grid0.Coords, EltTy.bits .f32 = 32 ∨ (Rect.block (s := S2000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S2000000x64.size a
  hwx0_1 : ∀ i : grid0.Coords, EltTy.bits .f32 = 32 ∨ (Rect.block (s := S2000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S2000000x1.size a
  hwx0_2 : ∀ i : grid0.Coords, EltTy.bits .f32 = 32 ∨ (Rect.block (s := S2000000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S2000000x1.size a
  hwx0_3 : ∀ i : grid0.Coords, EltTy.bits .f32 = 32 ∨ (Rect.block (s := S2000000x1) S5000x1.size (cc0_transform_3 i) (hinb0_3 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf

abbrev win0_0 : Pipeline.Window sig grid0 :=
  Pipeline.Window.ofSpec (Memref.whole main_v8) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S150000x64 : Shape := ⟨2, ![150000, 64]⟩
abbrev S100000 : Shape := ⟨1, ![100000]⟩
abbrev S50000 : Shape := ⟨1, ![50000]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩
abbrev S150000 : Shape := ⟨1, ![150000]⟩
abbrev S150000x1 : Shape := ⟨2, ![150000, 1]⟩
abbrev S2000000x1 : Shape := ⟨2, ![2000000, 1]⟩
abbrev S2000000x64 : Shape := ⟨2, ![2000000, 64]⟩

abbrev nBuf : Space → Nat
  | .hbm => 120
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S100000, .f32⟩
  | .hbm, ⟨2, _⟩ => ⟨S100000, .f32⟩
  | .hbm, ⟨3, _⟩ => ⟨S50000, .f32⟩
  | .hbm, ⟨4, _⟩ => ⟨S2000000, .i32⟩
  | .hbm, ⟨5, _⟩ => ⟨S2000000, .i32⟩
  | .hbm, ⟨6, _⟩ => ⟨S100000x64, .f32⟩
  | .hbm, ⟨7, _⟩ => ⟨S50000x64, .f32⟩
  | .hbm, ⟨8, _⟩ => ⟨S150000x64, .f32⟩
  | .hbm, ⟨9, _⟩ => ⟨S_, .f32⟩
  | .hbm, ⟨10, _⟩ => ⟨S150000, .f32⟩
  | .hbm, ⟨11, _⟩ => ⟨S150000x1, .f32⟩
  | .hbm, ⟨12, _⟩ => ⟨S150000x1, .f32⟩
  | .hbm, ⟨13, _⟩ => ⟨S_, .f32⟩
  | .hbm, ⟨14, _⟩ => ⟨S150000x1, .f32⟩
  | .hbm, ⟨15, _⟩ => ⟨S150000x1, .f32⟩
  | .hbm, ⟨16, _⟩ => ⟨S150000x64, .f32⟩
  | .hbm, ⟨17, _⟩ => ⟨S150000x64, .f32⟩
  | .hbm, ⟨18, _⟩ => ⟨S100000x64, .f32⟩
  | .hbm, ⟨19, _⟩ => ⟨S50000x64, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x64, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S2000000, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000, .f32⟩
  | .hbm, ⟨50, _⟩ => ⟨S2000000, .f32⟩
  | .hbm, ⟨51, _⟩ => ⟨S2000000, .f32⟩
  | .hbm, ⟨52, _⟩ => ⟨S2000000, .f32⟩
  | .hbm, ⟨53, _⟩ => ⟨S_, .f32⟩
  | .hbm, ⟨54, _⟩ => ⟨S2000000, .f32⟩
  | .hbm, ⟨55, _⟩ => ⟨S2000000, .f32⟩
  | .hbm, ⟨56, _⟩ => ⟨S_, .f32⟩
  | .hbm, ⟨57, _⟩ => ⟨S2000000, .f32⟩
  | .hbm, ⟨58, _⟩ => ⟨S2000000, .f32⟩
  | .hbm, ⟨59, _⟩ => ⟨S_, .f32⟩
  | .hbm, ⟨60, _⟩ => ⟨S2000000, .f32⟩
  | .hbm, ⟨61, _⟩ => ⟨S2000000, .f32⟩
  | .hbm, ⟨62, _⟩ => ⟨S_, .f32⟩
  | .hbm, ⟨63, _⟩ => ⟨S2000000, .f32⟩
  | .hbm, ⟨64, _⟩ => ⟨S2000000, .f32⟩
  | .hbm, ⟨65, _⟩ => ⟨S2000000, .f32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S2000000x1, .i32⟩
  | .hbm, ⟨74, _⟩ => ⟨S2000000, .f32⟩
  | .hbm, ⟨75, _⟩ => ⟨S2000000, .f32⟩
  | .hbm, ⟨76, _⟩ => ⟨S2000000, .f32⟩
  | .hbm, ⟨77, _⟩ => ⟨S_, .i32⟩
  | .hbm, ⟨78, _⟩ => ⟨S2000000, .i32⟩
  | .hbm, ⟨79, _⟩ => ⟨S2000000, .i1⟩
  | .hbm, ⟨80, _⟩ => ⟨S_, .i32⟩
  | .hbm, ⟨81, _⟩ => ⟨S2000000, .i32⟩
  | .hbm, ⟨82, _⟩ => ⟨S2000000, .i32⟩
  | .hbm, ⟨83, _⟩ => ⟨S2000000, .i32⟩
  | .hbm, ⟨84, _⟩ => ⟨S2000000x1, .i32⟩
  | .hbm, ⟨85, _⟩ => ⟨S2000000, .f32⟩
  | .hbm, ⟨86, _⟩ => ⟨S2000000, .f32⟩
  | .hbm, ⟨87, _⟩ => ⟨S2000000, .f32⟩
  | .hbm, ⟨88, _⟩ => ⟨S2000000x1, .f32⟩
  | .hbm, ⟨89, _⟩ => ⟨S_, .i32⟩
  | .hbm, ⟨90, _⟩ => ⟨S2000000, .i32⟩
  | .hbm, ⟨91, _⟩ => ⟨S2000000, .i1⟩
  | .hbm, ⟨92, _⟩ => ⟨S_, .i32⟩
  | .hbm, ⟨93, _⟩ => ⟨S2000000, .i32⟩
  | .hbm, ⟨94, _⟩ => ⟨S2000000, .i32⟩
  | .hbm, ⟨95, _⟩ => ⟨S2000000, .i32⟩
  | .hbm, ⟨96, _⟩ => ⟨S2000000x1, .i32⟩
  | .hbm, ⟨97, _⟩ => ⟨S2000000x64, .f32⟩
  | .hbm, ⟨98, _⟩ => ⟨S2000000x64, .f32⟩
  | .hbm, ⟨99, _⟩ => ⟨S2000000x64, .f32⟩
  | .hbm, ⟨100, _⟩ => ⟨S_, .f32⟩
  | .hbm, ⟨101, _⟩ => ⟨S100000x64, .f32⟩
  | .hbm, ⟨102, _⟩ => ⟨S2000000x1, .i32⟩
  | .hbm, ⟨103, _⟩ => ⟨S100000x64, .f32⟩
  | .hbm, ⟨104, _⟩ => ⟨S_, .i32⟩
  | .hbm, ⟨105, _⟩ => ⟨S2000000, .i32⟩
  | .hbm, ⟨106, _⟩ => ⟨S2000000, .i1⟩
  | .hbm, ⟨107, _⟩ => ⟨S_, .i32⟩
  | .hbm, ⟨108, _⟩ => ⟨S2000000, .i32⟩
  | .hbm, ⟨109, _⟩ => ⟨S2000000, .i32⟩
  | .hbm, ⟨110, _⟩ => ⟨S2000000, .i32⟩
  | .hbm, ⟨111, _⟩ => ⟨S2000000x1, .i32⟩
  | .hbm, ⟨112, _⟩ => ⟨S2000000x64, .f32⟩
  | .hbm, ⟨113, _⟩ => ⟨S2000000x64, .f32⟩
  | .hbm, ⟨114, _⟩ => ⟨S2000000x64, .f32⟩
  | .hbm, ⟨115, _⟩ => ⟨S_, .f32⟩
  | .hbm, ⟨116, _⟩ => ⟨S50000x64, .f32⟩
  | .hbm, ⟨117, _⟩ => ⟨S2000000x1, .i32⟩
  | .hbm, ⟨118, _⟩ => ⟨S50000x64, .f32⟩
  | .hbm, ⟨119, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S150000x64_S100000x64_0_0 : S150000x64.Slices ![0, 0] S100000x64
  slices_S150000x64_S50000x64_100000_0 : S150000x64.Slices ![100000, 0] S50000x64
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x64_S2000000_d1 : S2000000x64.ReducesTo [1] S2000000
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  scatter_S100000x64_S2000000x1_S2000000x64_1_0_0_1_wf : ScatterDims.WF S100000x64 S2000000x1 S2000000x64 [1] [0] [0] 1
  scatter_S50000x64_S2000000x1_S2000000x64_1_0_0_1_wf : ScatterDims.WF S50000x64 S2000000x1 S2000000x64 [1] [0] [0] 1

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf

class Facts : Prop extends Facts₀ where

variable [Facts]
-- ==== Proof.Edges.lean ====
/-
  The pieces both programs are made of, each as ONE function of the argument arrays.

  Every edge `e` names a user `u[e]` and an item `i[e]`; a negative index counts from the end (the programs add the
  table's length to it) and the gather then clamps it into the table. `gatherU` / `gatherI` are the user and item
  rows of `x` per edge (the user rows are the first 100000 rows of `x`, the item rows the last 50000), `betaU`, `duU`,
  `diI` the offsets and degrees per edge. `tail w …` is what both programs do with a per-edge weight `w`: scale the
  item rows by it and sum them into the users, scale the user rows and sum them into the items, and stack the two.
  The tail is never opened: the two programs are equal because they feed it equal weights.
-/
import proofs.«110566_j45853070852235_2_alg».proof.KernelIdeal
import proofs.«110566_j45853070852235_2_alg».proof.Proof.Gen.KernelIdeal
import Idealize.ShloMosaic.PureOps.Ideal

noncomputable section

namespace Cert.Edges

open Idealize.ShloMosaic Cert.KernelIdeal Cert.KernelIdeal.Facts₀

/-- An index vector of users, negative entries wrapped, as the column of start indices a gather takes. -/
def idxU (u : (⟨S2000000, .i32⟩ : BufTy).Contents (Elt Ideal)) : (⟨S2000000x1, .i32⟩ : BufTy).Contents (Elt Ideal) :=
  broadcastInDim S2000000x1 ![0] bcast_S2000000_S2000000x1_0
    (select (cmpi .slt u (broadcastInDim S2000000 ![] bcast_S_S2000000 (constantI S_ 32 0#32)))
      (addi u (broadcastInDim S2000000 ![] bcast_S_S2000000 (constantI S_ 32 100000#32))) u)

/-- The same for items. -/
def idxI (i : (⟨S2000000, .i32⟩ : BufTy).Contents (Elt Ideal)) : (⟨S2000000x1, .i32⟩ : BufTy).Contents (Elt Ideal) :=
  broadcastInDim S2000000x1 ![0] bcast_S2000000_S2000000x1_0
    (select (cmpi .slt i (broadcastInDim S2000000 ![] bcast_S_S2000000 (constantI S_ 32 0#32)))
      (addi i (broadcastInDim S2000000 ![] bcast_S_S2000000 (constantI S_ 32 50000#32))) i)

/-- Rows of a user table per edge. -/
def rowsU (t : (⟨S100000x64, .f32⟩ : BufTy).Contents (Elt Ideal)) (u : (⟨S2000000, .i32⟩ : BufTy).Contents (Elt Ideal)) :
    (⟨S2000000x64, .f32⟩ : BufTy).Contents (Elt Ideal) :=
  Host.gather gather_S100000x64_S2000000x1_S2000000x64_1_0_n_n_0_1_164 t (idxU u)

/-- Rows of an item table per edge. -/
def rowsI (t : (⟨S50000x64, .f32⟩ : BufTy).Contents (Elt Ideal)) (i : (⟨S2000000, .i32⟩ : BufTy).Contents (Elt Ideal)) :
    (⟨S2000000x64, .f32⟩ : BufTy).Contents (Elt Ideal) :=
  Host.gather gather_S50000x64_S2000000x1_S2000000x64_1_0_n_n_0_1_164 t (idxI i)

/-- The user block of a table over all nodes. -/
def usersOf (x : (⟨S150000x64, .f32⟩ : BufTy).Contents (Elt Ideal)) : (⟨S100000x64, .f32⟩ : BufTy).Contents (Elt Ideal) :=
  extractStridedSlice S100000x64 ![0, 0] x slices_S150000x64_S100000x64_0_0

/-- The item block of a table over all nodes. -/
def itemsOf (x : (⟨S150000x64, .f32⟩ : BufTy).Contents (Elt Ideal)) : (⟨S50000x64, .f32⟩ : BufTy).Contents (Elt Ideal) :=
  extractStridedSlice S50000x64 ![100000, 0] x slices_S150000x64_S50000x64_100000_0

/-- The user rows of `x` per edge. -/
def gatherU (x : (⟨S150000x64, .f32⟩ : BufTy).Contents (Elt Ideal)) (u : (⟨S2000000, .i32⟩ : BufTy).Contents (Elt Ideal)) :
    (⟨S2000000x64, .f32⟩ : BufTy).Contents (Elt Ideal) := rowsU (usersOf x) u

/-- The item rows of `x` per edge. -/
def gatherI (x : (⟨S150000x64, .f32⟩ : BufTy).Contents (Elt Ideal)) (i : (⟨S2000000, .i32⟩ : BufTy).Contents (Elt Ideal)) :
    (⟨S2000000x64, .f32⟩ : BufTy).Contents (Elt Ideal) := rowsI (itemsOf x) i

/-- A per-user vector read per edge (the offsets `beta`, the degrees `du`). -/
def perU (b : (⟨S100000, .f32⟩ : BufTy).Contents (Elt Ideal)) (u : (⟨S2000000, .i32⟩ : BufTy).Contents (Elt Ideal)) :
    (⟨S2000000, .f32⟩ : BufTy).Contents (Elt Ideal) :=
  Host.gather gather_S100000_S2000000x1_S2000000_n_0_n_n_0_1_1 b (idxU u)

/-- A per-item vector read per edge (the degrees `di`). -/
def perI (b : (⟨S50000, .f32⟩ : BufTy).Contents (Elt Ideal)) (i : (⟨S2000000, .i32⟩ : BufTy).Contents (Elt Ideal)) :
    (⟨S2000000, .f32⟩ : BufTy).Contents (Elt Ideal) :=
  Host.gather gather_S50000_S2000000x1_S2000000_n_0_n_n_0_1_1 b (idxI i)

/-- `1 / (√du[u] · √di[i])` per edge. -/
def invDeg (du : (⟨S100000, .f32⟩ : BufTy).Contents (Elt Ideal)) (di : (⟨S50000, .f32⟩ : BufTy).Contents (Elt Ideal))
    (u i : (⟨S2000000, .i32⟩ : BufTy).Contents (Elt Ideal)) : (⟨S2000000, .f32⟩ : BufTy).Contents (Elt Ideal) :=
  Host.divf (broadcastInDim S2000000 ![] bcast_S_S2000000 (constant (F := Ideal) S_ .f32 0x3F800000#32))
    (mulf (Host.sqrt (perU du u)) (Host.sqrt (perI di i)))

/-- What both programs do with the per-edge weights `w`, the gathered user rows `gu` and item rows `gi`. -/
def tail (w : (⟨S2000000, .f32⟩ : BufTy).Contents (Elt Ideal)) (gu gi : (⟨S2000000x64, .f32⟩ : BufTy).Contents (Elt Ideal))
    (u i : (⟨S2000000, .i32⟩ : BufTy).Contents (Elt Ideal)) : (⟨S150000x64, .f32⟩ : BufTy).Contents (Elt Ideal) :=
  concatenate S150000x64 0
    [⟨S100000x64, Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 u)
        (mulf (broadcastInDim S2000000x64 ![0, 1] bcast_S2000000x1_S2000000x64_0_1
          (broadcastInDim S2000000x1 ![0] bcast_S2000000_S2000000x1_0 w)) gi)⟩,
     ⟨S50000x64, Host.scatterAdd scatter_S50000x64_S2000000x1_S2000000x64_1_0_0_1
        (broadcastInDim S50000x64 ![] bcast_S_S50000x64 (constant (F := Ideal) S_ .f32 0x00000000#32))
        (broadcastInDim S2000000x1 ![0] bcast_S2000000_S2000000x1_0 i)
        (mulf (broadcastInDim S2000000x64 ![0, 1] bcast_S2000000x1_S2000000x64_0_1
          (broadcastInDim S2000000x1 ![0] bcast_S2000000_S2000000x1_0 w)) gu)⟩]
    concatenates_S100000x64_S50000x64_S150000x64_d0

end Cert.Edges

end
-- ==== Proof.KernelHost.lean ====
/-
  The kernel program's host lines, read.

  Before the region the program gathers, per edge, the user rows and item rows of `x`, the user's offset and the two
  degrees, and forms `1 / (√du[u] · √di[i])`; after the region it reshapes the region's column of raw weights to a
  vector, scales it by that reciprocal, and runs the common tail. Each reading is stated over an arbitrary valuation
  of the buffers first and then used at the contents the program has there.
-/
import proofs.«110566_j45853070852235_2_alg».proof.Proof.Gen.KernelIdeal.Frame
import proofs.«110566_j45853070852235_2_alg».proof.Proof.Edges
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen Cert.Edges

/-! ## The lines before the region, over any valuation -/

theorem pre_v8 (Vv : Valuation τ sig (Elt Ideal)) :
    StableHlo.after (hostOps0 (F := Ideal)) Vv (Proc.devRef .tc main_v8)
      = gatherU (Vv (Proc.devRef .tc main_arg0)) (Vv (Proc.devRef .tc main_arg4)) := by
  after_results_simp
  rfl

theorem pre_v15 (Vv : Valuation τ sig (Elt Ideal)) :
    StableHlo.after (hostOps0 (F := Ideal)) Vv (Proc.devRef .tc main_v15)
      = gatherI (Vv (Proc.devRef .tc main_arg0)) (Vv (Proc.devRef .tc main_arg5)) := by
  after_results_simp
  rfl

theorem pre_v42 (Vv : Valuation τ sig (Elt Ideal)) :
    StableHlo.after (hostOps0 (F := Ideal)) Vv (Proc.devRef .tc main_v42)
      = (shapeCast S2000000x1 (perU (Vv (Proc.devRef .tc main_arg1)) (Vv (Proc.devRef .tc main_arg4))) Facts₀.shapeCasts_S2000000_S2000000x1
          : (⟨S2000000x1, .f32⟩ : BufTy).Contents (Elt Ideal)) := by
  after_results_simp
  rfl

theorem pre_v41 (Vv : Valuation τ sig (Elt Ideal)) :
    StableHlo.after (hostOps0 (F := Ideal)) Vv (Proc.devRef .tc main_v41)
      = invDeg (Vv (Proc.devRef .tc main_arg2)) (Vv (Proc.devRef .tc main_arg3)) (Vv (Proc.devRef .tc main_arg4)) (Vv (Proc.devRef .tc main_arg5)) := by
  after_results_simp
  rfl

/-! ## The lines after the region, over any valuation -/

theorem post_v57 (Wv : Valuation τ sig (Elt Ideal)) :
    StableHlo.after (hostOps1 (F := Ideal)) Wv (Proc.devRef .tc main_v57)
      = tail (mulf (F := Ideal) (s := S2000000) (φ := .f32)
            (shapeCast S2000000 (Wv (Proc.devRef .tc main_v43)) Facts₀.shapeCasts_S2000000x1_S2000000)
            (Wv (Proc.devRef .tc main_v41)))
          (Wv (Proc.devRef .tc main_v8)) (Wv (Proc.devRef .tc main_v15))
          (Wv (Proc.devRef .tc main_arg4)) (Wv (Proc.devRef .tc main_arg5)) := by
  after_results_simp
  rfl

end Cert.KernelHost

end
-- ==== Proof.Algebra.lean ====
/-
  The per-edge weight, as a function of one edge's data, in the two arrangements the programs compute it, and
  the law that makes them one function.

  An edge carries a user row `p` and an item row `q` (64 entries each), the user's offset `b`, and the two degrees
  `du`, `di`. With the clamped norms `cp = max (√(Σ p²)) ε`, `cq = max (√(Σ q²)) ε` the score is the cosine
  similarity less the offset, and the weight is `4·σ(s)·(1 − σ(s))` scaled by `1/(√du·√di)`.

  One program divides the raw dot product once, `(Σ p·q) / (cp·cq)`, and scales by the reciprocal `1 / (√du·√di)`;
  the other normalises the rows first, `Σ (p/cp)·(q/cq)`, and divides by `√du` and then by `√di`. On the extended
  reals these agree when the rows are finite (so that `cp`, `cq` are positive reals and the quotient moves across the
  finite sum) and the degrees are positive reals (so that neither program divides by zero or by a junk value).
-/
import Idealize.ShloMosaic.PureOps.Ideal
import Idealize.ShloMosaic.PureOps.Ideal.Laws

noncomputable section

open scoped BigOperators

namespace Cert.EdgeWeight

open Idealize.ShloMosaic

/-! ## The four literals -/

/-- The pattern of `0.0`. -/
abbrev zero32 : EReal := Ideal.ofBits .f32 0x00000000#32
/-- The pattern of `1.0`. -/
abbrev one32 : EReal := Ideal.ofBits .f32 0x3F800000#32
/-- The pattern of `4.0`. -/
abbrev four32 : EReal := Ideal.ofBits .f32 0x40800000#32
/-- The pattern of the norm clamp `ε` (the float nearest `1e-12`). -/
abbrev eps32 : EReal := Ideal.ofBits .f32 0x2B8CBCCC#32

theorem zero32_eq : zero32 = 0 := Ideal.ofBits_zero_f32

theorem one32_eq : one32 = 1 := by
  simp [Ideal.ofBits, Ideal.ieee, -EReal.coe_mul]; norm_num

/-- The clamp is a positive real: `9223372 · 2⁻⁶³`. -/
theorem eps32_pos : ∃ r : ℝ, 0 < r ∧ eps32 = (r : EReal) := by
  refine ⟨(9223372 : ℝ) * (2 : ℝ) ^ (-63 : ℤ), by positivity, ?_⟩
  simp [Ideal.ofBits, Ideal.ieee, -EReal.coe_mul]

/-! ## Sums of reals inside the extended reals -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The two arrangements -/

/-- The clamped norm of a row. -/
def cnorm (p : Fin 64 → EReal) : EReal := max (Ideal.sqrt (∑ k, p k * p k)) eps32

/-- `4·σ·(1 − σ)` from the logistic value `σ`. -/
def omega (g : EReal) : EReal := (four32 * g) * (one32 - g)

/-- The weight before the degree scaling, with the dot product divided once by the product of the clamped norms. -/
def rawWeight (p q : Fin 64 → EReal) (b : EReal) : EReal :=
  omega (Ideal.logistic (Ideal.div (∑ k, p k * q k) (cnorm p * cnorm q) - b))

/-- The weight with the dot product divided once and the degrees' reciprocal taken once. -/
def kernelWeight (p q : Fin 64 → EReal) (b du di : EReal) : EReal :=
  rawWeight p q b * Ideal.div one32 (Ideal.sqrt du * Ideal.sqrt di)

/-- The weight with the rows normalised first and the two degree roots divided out in turn. -/
def referenceWeight (p q : Fin 64 → EReal) (b du di : EReal) : EReal :=
  Ideal.div (Ideal.div
    (omega (Ideal.div one32 (one32 + Ideal.exp (-((∑ k, Ideal.div (p k) (cnorm p) * Ideal.div (q k) (cnorm q)) - b)))))
    (Ideal.sqrt du)) (Ideal.sqrt di)

/-- A finite row's clamped norm is a positive real. -/
theorem cnorm_pos {p : Fin 64 → EReal} (hp : ∀ k, ∃ r : ℝ, p k = (r : EReal)) :
    ∃ c : ℝ, 0 < c ∧ cnorm p = (c : EReal) := by
  choose pr hpr using hp
  obtain ⟨e, he, hε⟩ := eps32_pos
  have hs : (∑ k, p k * p k) = ((∑ k, pr k * pr k : ℝ) : EReal) := by
    rw [coe_sum]; exact Finset.sum_congr rfl fun k _ => by rw [hpr k, EReal.coe_mul]
  have hnn : ¬ (∑ k, pr k * pr k : ℝ) < 0 := not_lt.mpr (Finset.sum_nonneg fun k _ => mul_self_nonneg _)
  refine ⟨max (Real.sqrt (∑ k, pr k * pr k)) e, lt_max_of_lt_right he, ?_⟩
  unfold cnorm
  rw [hs, Ideal.sqrt_coe, if_neg hnn, hε]
  exact (EReal.coe_strictMono.monotone.map_max).symm

/-- The score: dividing the dot product once is normalising the rows first. -/
theorem score_eq {p q : Fin 64 → EReal} (hp : ∀ k, ∃ r : ℝ, p k = (r : EReal)) (hq : ∀ k, ∃ r : ℝ, q k = (r : EReal)) :
    Ideal.div (∑ k, p k * q k) (cnorm p * cnorm q) = ∑ k, Ideal.div (p k) (cnorm p) * Ideal.div (q k) (cnorm q) := by
  obtain ⟨c1, hc1, e1⟩ := cnorm_pos hp
  obtain ⟨c2, hc2, e2⟩ := cnorm_pos hq
  choose pr hpr using hp
  choose qr hqr using hq
  rw [e1, e2, ← EReal.coe_mul, Ideal.div_coe (mul_pos hc1 hc2).ne']
  have hl : (∑ k, p k * q k) = ((∑ k, pr k * qr k : ℝ) : EReal) := by
    rw [coe_sum]; exact Finset.sum_congr rfl fun k _ => by rw [hpr k, hqr k, EReal.coe_mul]
  have hr : (∑ k, Ideal.div (p k) (c1 : EReal) * Ideal.div (q k) (c2 : EReal))
      = ((∑ k, (pr k * (1 / c1)) * (qr k * (1 / c2)) : ℝ) : EReal) := by
    rw [coe_sum]
    exact Finset.sum_congr rfl fun k _ => by
      rw [Ideal.div_coe hc1.ne', Ideal.div_coe hc2.ne', hpr k, hqr k, ← EReal.coe_mul, ← EReal.coe_mul, ← EReal.coe_mul]
  rw [hl, hr, ← EReal.coe_mul]
  congr 1
  rw [Finset.sum_mul]
  refine Finset.sum_congr rfl fun k _ => ?_
  field_simp

/-- The degree scaling: one reciprocal of the product is two quotients in turn, for positive real degrees. -/
theorem scale_eq (W : EReal) {du di : EReal} (hdu : ∃ r : ℝ, 0 < r ∧ du = (r : EReal)) (hdi : ∃ r : ℝ, 0 < r ∧ di = (r : EReal)) :
    W * Ideal.div one32 (Ideal.sqrt du * Ideal.sqrt di) = Ideal.div (Ideal.div W (Ideal.sqrt du)) (Ideal.sqrt di) := by
  obtain ⟨a, ha, rfl⟩ := hdu
  obtain ⟨b, hb, rfl⟩ := hdi
  have hsa : (0 : ℝ) < Real.sqrt a := Real.sqrt_pos.mpr ha
  have hsb : (0 : ℝ) < Real.sqrt b := Real.sqrt_pos.mpr hb
  rw [Ideal.sqrt_coe, if_neg (not_lt.mpr ha.le), Ideal.sqrt_coe, if_neg (not_lt.mpr hb.le), ← EReal.coe_mul,
    Ideal.div_coe (mul_pos hsa hsb).ne', Ideal.div_coe hsa.ne', Ideal.div_coe hsb.ne', one32_eq, one_mul, mul_assoc,
    ← EReal.coe_mul]
  congr 2
  field_simp

/-- THE LAW: on finite rows and positive real degrees the two arrangements give one weight. -/
theorem weights_agree {p q : Fin 64 → EReal} (b : EReal) {du di : EReal}
    (hp : ∀ k, ∃ r : ℝ, p k = (r : EReal)) (hq : ∀ k, ∃ r : ℝ, q k = (r : EReal))
    (hdu : ∃ r : ℝ, 0 < r ∧ du = (r : EReal)) (hdi : ∃ r : ℝ, 0 < r ∧ di = (r : EReal)) :
    kernelWeight p q b du di = referenceWeight p q b du di := by
  unfold kernelWeight referenceWeight rawWeight
  rw [scale_eq _ hdu hdi, score_eq hp hq]
  unfold Ideal.logistic
  rw [one32_eq]

end Cert.EdgeWeight

end
-- ==== Proof.KernelBlocks.lean ====
/-
  The region, read: the column of raw weights it leaves.

  The grid has 400 points; point `t` handles the 5000 edges `5000·t … 5000·t + 4999`: it loads their user rows, item
  rows and offsets, and stores their raw weights. Row `r` of a block's payload depends on row `r` of each input block
  only (three lane sums over the 64 entries of the rows, then scalar arithmetic), so what point `t` writes back is
  block `t` of ONE function of the three whole arrays, `rawColumn`. The 400 blocks tile the column, hence the
  column ends holding that function.
-/
import proofs.«110566_j45853070852235_2_alg».proof.Proof.Gen.KernelIdeal.Frame
import proofs.«110566_j45853070852235_2_alg».proof.Proof.Algebra
import Idealize.ShloMosaic.Lib.Pipeline.Value
import Idealize.ShloMosaic.Lib.ValueIdx
import Idealize.ShloMosaic.PureOps.Ideal.Laws

set_option maxRecDepth 16384

noncomputable section

open scoped BigOperators

namespace Cert.KernelBlocks

open Idealize.ShloMosaic Idealize.ShloMosaic.TcCoe Idealize.SL.Sem Idealize.ShloMosaic.ValueIdx
open Idealize.ShloMosaic.Pipeline (Dat)
open Cert.KernelIdeal Cert.KernelIdeal.Gen Cert.EdgeWeight

/-! ## The body's arithmetic at one row -/

/-- A lane sum kept as a column, at row `r`: the sum over the row's 64 entries. -/
theorem lane_sum (v : FVec Ideal S5000x64 .f32) (r : Fin 5000) (z : Fin 1) :
    (shapeCast S5000x1 (multiReduction .add [1] S5000 v 0x00000000#32 Facts₀.reduces_S5000x64_S5000 (.inl rfl) rfl)
        Facts₀.shapeCasts_S5000_S5000x1 : FVec Ideal S5000x1 .f32) (ix2 r z)
      = ∑ k : Fin 64, v (ix2 r k) := by
  refine (shapeCast_apply _ _ (ix2 r z) (ix1 r) ?_).trans ?_
  · rw [Shape.rowMajor_val_one, Shape.rowMajor_val_two]
    have hz := z.isLt
    show r.val = r.val * 1 + z.val
    omega
  · refine (Ideal.multiReduction_add_single v 0x00000000#32 Facts₀.reduces_S5000x64_S5000 (.inl rfl) rfl (ix1 r)).trans ?_
    refine Finset.sum_congr rfl fun k _ => congrArg v ?_
    funext c; apply Fin.ext
    fin_cases c <;> rfl

/-- THE PAYLOAD AT ROW `r`: the raw weight of that row's user row, item row and offset. -/
theorem pay_apply (x0 x1 : Vec Ideal S5000x64 .f32) (x2 : Vec Ideal S5000x1 .f32) (r : Fin 5000) (z : Fin 1) :
    k0_pay1 (F := Ideal) x0 x1 x2 (ix2 r z)
      = rawWeight (fun k => x0 (ix2 r k)) (fun k => x1 (ix2 r k)) (x2 (ix2 r z)) := by
  have h0 : (shapeCast S5000x64 x0 Facts₀.shapeCasts_S5000x64_S5000x64 : FVec Ideal S5000x64 .f32) = x0 := shapeCast_self _ _
  have h1 : (shapeCast S5000x64 x1 Facts₀.shapeCasts_S5000x64_S5000x64 : FVec Ideal S5000x64 .f32) = x1 := shapeCast_self _ _
  have h2 : (shapeCast S5000x1 x2 Facts₀.shapeCasts_S5000x1_S5000x1 : FVec Ideal S5000x1 .f32) = x2 := shapeCast_self _ _
  have e00 := lane_sum (mulf x0 x0) r z
  have e11 := lane_sum (mulf x1 x1) r z
  have e01 := lane_sum (mulf x0 x1) r z
  unfold k0_pay1
  simp only [h0, h1, h2]
  simp only [mulf_apply] at e00 e11 e01
  simp only [rawWeight, omega, cnorm]
  rw [← e00, ← e11, ← e01]
  rfl

/-! ## The column as one function of the three arrays -/

variable (m : (ℓ : Loc nD τ sig) → Buf (Elt Ideal) ℓ)

/-- The raw weight of every edge: from the edge's user row, item row and offset. -/
def rawColumn (X0 X1 : S2000000x64.Idx → Elt Ideal .f32) (X2 : S2000000x1.Idx → Elt Ideal .f32) :
    S2000000x1.Idx → Elt Ideal .f32 :=
  fun j => rawWeight (fun k => X0 (ix2 (⟨(j 0).val, idx2_lt0 j⟩ : Fin 2000000) k))
    (fun k => X1 (ix2 (⟨(j 0).val, idx2_lt0 j⟩ : Fin 2000000) k)) (X2 j)

theorem hz : (![0, 0] : Fin 2 → Nat) = fun _ => 0 := funext fun a => by fin_cases a <;> rfl

/-- The printed index maps, decided over the grid: every window's block at point `t` is block `t` along the edges. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The edge that row `r` of point `t`'s blocks is. -/
def edgeOf (t : Fin cfg0.N) (r : Fin 5000) : Fin 2000000 :=
  ⟨t.val * 5000 + r.val, by
    have ht : t.val < grid0.N := t.isLt
    rw [N_0] at ht
    have hr := r.isLt
    omega⟩

theorem emb0 (t : Fin cfg0.N) (r : Fin 5000) (k : Fin 64) :
    ((cfg0.win 0).blk t).view.emb (ix2 r k) = ix2 (edgeOf t r) k := by
  obtain ⟨e0, e1, -⟩ := idx_facts t
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

theorem emb1 (t : Fin cfg0.N) (r : Fin 5000) (k : Fin 64) :
    ((cfg0.win 1).blk t).view.emb (ix2 r k) = ix2 (edgeOf t r) k := by
  obtain ⟨-, -, e0, e1, -⟩ := idx_facts t
  funext a; apply Fin.ext
  match a with
  | ⟨0, _⟩ => show win0_1.index t (0 : Fin 2) * 5000 + 1 * r.val = t.val * 5000 + r.val; omega
  | ⟨1, _⟩ => show win0_1.index t (1 : Fin 2) * 64 + 1 * k.val = k.val; omega

theorem emb2 (t : Fin cfg0.N) (r : Fin 5000) (z : Fin 1) :
    ((cfg0.win 2).blk t).view.emb (ix2 r z) = ix2 (edgeOf t r) z := by
  obtain ⟨-, -, -, -, e0, e1, -⟩ := idx_facts t
  funext a; apply Fin.ext
  match a with
  | ⟨0, _⟩ => show win0_2.index t (0 : Fin 2) * 5000 + 1 * r.val = t.val * 5000 + r.val; omega
  | ⟨1, _⟩ => show win0_2.index t (1 : Fin 2) * 1 + 1 * z.val = z.val; omega

theorem emb3 (t : Fin cfg0.N) (r : Fin 5000) (z : Fin 1) :
    ((cfg0.win 3).blk t).view.emb (ix2 r z) = ix2 (edgeOf t r) z := by
  obtain ⟨-, -, -, -, -, -, e0, e1⟩ := idx_facts t
  funext a; apply Fin.ext
  match a with
  | ⟨0, _⟩ => show win0_3.index t (0 : Fin 2) * 5000 + 1 * r.val = t.val * 5000 + r.val; omega
  | ⟨1, _⟩ => show win0_3.index t (1 : Fin 2) * 1 + 1 * z.val = z.val; omega

/-- Row `r` of the user-row block at point `t` is the user row of edge `5000·t + r`. -/
theorem read0 (c : Dev nD) (t : Fin cfg0.N) (r : Fin 5000) (k : Fin 64) :
    iblk m c 0 t (ix2 r k) = V m c main_v8 (ix2 (edgeOf t r) k) := by
  show V m c main_v8 (((cfg0.win 0).blk t).view.emb (ix2 r k)) = V m c main_v8 (ix2 (edgeOf t r) k)
  rw [emb0]

theorem read1 (c : Dev nD) (t : Fin cfg0.N) (r : Fin 5000) (k : Fin 64) :
    iblk m c 1 t (ix2 r k) = V m c main_v15 (ix2 (edgeOf t r) k) := by
  show V m c main_v15 (((cfg0.win 1).blk t).view.emb (ix2 r k)) = V m c main_v15 (ix2 (edgeOf t r) k)
  rw [emb1]

theorem read2 (c : Dev nD) (t : Fin cfg0.N) (r : Fin 5000) (z : Fin 1) :
    iblk m c 2 t (ix2 r z) = V m c main_v42 (ix2 (edgeOf t r) z) := by
  show V m c main_v42 (((cfg0.win 2).blk t).view.emb (ix2 r z)) = V m c main_v42 (ix2 (edgeOf t r) z)
  rw [emb2]

/-- WHAT POINT `t` WRITES BACK is block `t` of the raw-weight column of the three arrays as the region finds them. -/
theorem flushed_eq (c : Dev nD) (t : Fin cfg0.N) :
    (dats m 0 c).flushed 3 t
      = ((cfg0.win 3).blk t).view.read (Elt Ideal) (rawColumn (V m c main_v8) (V m c main_v15) (V m c main_v42)) := by
  show (cfg0.win 3).cut (grid0.coords t) ((dats m 0 c).after 3 t) = _
  rw [after0_3]
  unfold out0_3
  rw [View.canon_unit_zero hz]
  simp only [View.ld_unit_zero (S := S5000x64) hz, View.ld_unit_zero (S := S5000x1) hz]
  funext j
  obtain ⟨r, z, rfl⟩ : ∃ (r : Fin 5000) (z : Fin 1), j = ix2 r z := ⟨j 0, j 1, eq_ix2 j⟩
  show k0_pay1 (iblk m c 0 t) (iblk m c 1 t) (iblk m c 2 t) (ix2 r z)
    = rawColumn (V m c main_v8) (V m c main_v15) (V m c main_v42) (((cfg0.win 3).blk t).view.emb (ix2 r z))
  refine (pay_apply (iblk m c 0 t) (iblk m c 1 t) (iblk m c 2 t) r z).trans ?_
  have hp : (fun k : Fin 64 => iblk m c 0 t (ix2 r k)) = fun k => V m c main_v8 (ix2 (edgeOf t r) k) :=
    funext fun k => read0 m c t r k
  have hq : (fun k : Fin 64 => iblk m c 1 t (ix2 r k)) = fun k => V m c main_v15 (ix2 (edgeOf t r) k) :=
    funext fun k => read1 m c t r k
  rw [hp, hq, read2 m c t r z, emb3 t r z]
  rfl

/-- An index of the column is in point `t`'s block iff each coordinate is in the block's range on its axis. -/
theorem mem_blk (t : Fin cfg0.N) (i : S2000000x1.Idx) :
    i ∈ ((cfg0.win 3).blk t).view.set ↔ ∀ a : Fin 2, win0_3.index t a * S5000x1.size a ≤ (i a).val
      ∧ (i a).val < win0_3.index t a * S5000x1.size a + S5000x1.size a := by
  show i ∈ ((View.whole main_v43).slice (win0_3.rect t)).set ↔ _
  rw [View.set_slice_whole, Rect.mem_set_unit]
  exact Iff.rfl

/-- Every edge is in the block of the point `e / 5000`. -/
theorem cover (i : S2000000x1.Idx) :
    ∃ t : Fin cfg0.N, (cfg0.win 3).flush t = true ∧ i ∈ ((cfg0.win 3).blk t).view.set := by
  have hi0 : (i 0).val < 2000000 := (i 0).isLt
  have hi1 : (i 1).val < 1 := (i 1).isLt
  obtain ⟨t, ht⟩ : ∃ t : Fin cfg0.N, t.val = (i 0).val / 5000 :=
    ⟨⟨(i 0).val / 5000, by show (i 0).val / 5000 < grid0.N; rw [N_0]; omega⟩, rfl⟩
  refine ⟨t, flush0_3 t, ?_⟩
  rw [mem_blk]
  obtain ⟨-, -, -, -, -, -, e0, e1⟩ := idx_facts t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 1 ≤ (i 1).val ∧ (i 1).val < win0_3.index t (1 : Fin 2) * 1 + 1
    omega

/-- THE COLUMN after the region: the raw weight of every edge. -/
theorem final3 (c : Dev nD) :
    (dats m 0 c).arrAt 3 cfg0.N = rawColumn (V m c main_v8) (V m c main_v15) (V m c main_v42) :=
  (dats m 0 c).arrAt_eq_of_cover 3 _ (fun t _ => flushed_eq m c t) cover

end Cert.KernelBlocks

end
-- ==== Proof.KernelRun.lean ====
/-
  The kernel program's run, read: its result is the common tail at the kernel's per-edge weights.

  The region leaves the column of raw weights (one per edge, from the edge's gathered rows and offset); the lines
  after it turn the column into a vector, scale it by `1 / (√du[u] · √di[i])`, and run the tail on the gathered rows.
-/
import proofs.«110566_j45853070852235_2_alg».proof.Proof.KernelHost
import proofs.«110566_j45853070852235_2_alg».proof.Proof.KernelBlocks
import Idealize.ShloMosaic.Lib.Pipeline.Cells

set_option maxRecDepth 16384

noncomputable section

namespace Cert.KernelRun

open Idealize.ShloMosaic Idealize.ShloMosaic.TcCoe Idealize.SL.Sem Idealize.ShloMosaic.StableHlo
open Idealize.ShloMosaic.Pipeline (Dat)
open Cert.KernelIdeal Cert.KernelIdeal.Gen Cert.Edges Cert.KernelHost Cert.KernelBlocks

variable (m : (ℓ : Loc nD τ sig) → Buf (Elt Ideal) ℓ) (ρ : Dev nD → PrngReg)

/-! ## The arrays as the region finds them -/

theorem V_v8 (c : Dev nD) :
    V m c main_v8 = gatherU (m ((c : Thread nD τ).loc main_arg0)) (m ((c : Thread nD τ).loc main_arg4)) := by
  show StableHlo.after hostOps0 (fun b => m (c, b)) (Proc.devRef .tc main_v8) = _
  exact pre_v8 _

theorem V_v15 (c : Dev nD) :
    V m c main_v15 = gatherI (m ((c : Thread nD τ).loc main_arg0)) (m ((c : Thread nD τ).loc main_arg5)) := by
  show StableHlo.after hostOps0 (fun b => m (c, b)) (Proc.devRef .tc main_v15) = _
  exact pre_v15 _

theorem V_v42 (c : Dev nD) :
    V m c main_v42 = (shapeCast S2000000x1 (perU (m ((c : Thread nD τ).loc main_arg1)) (m ((c : Thread nD τ).loc main_arg4)))
      Facts₀.shapeCasts_S2000000_S2000000x1 : (⟨S2000000x1, .f32⟩ : BufTy).Contents (Elt Ideal)) := by
  show StableHlo.after hostOps0 (fun b => m (c, b)) (Proc.devRef .tc main_v42) = _
  exact pre_v42 _

theorem V_v41 (c : Dev nD) :
    V m c main_v41 = invDeg (m ((c : Thread nD τ).loc main_arg2)) (m ((c : Thread nD τ).loc main_arg3))
      (m ((c : Thread nD τ).loc main_arg4)) (m ((c : Thread nD τ).loc main_arg5)) := by
  show StableHlo.after hostOps0 (fun b => m (c, b)) (Proc.devRef .tc main_v41) = _
  exact pre_v41 _

/-! ## The kernel's per-edge weights -/

/-- The column of raw weights the region leaves, from the argument arrays. -/
def rawK (c : Dev nD) : (⟨S2000000x1, .f32⟩ : BufTy).Contents (Elt Ideal) :=
  rawColumn (gatherU (m ((c : Thread nD τ).loc main_arg0)) (m ((c : Thread nD τ).loc main_arg4)))
    (gatherI (m ((c : Thread nD τ).loc main_arg0)) (m ((c : Thread nD τ).loc main_arg5)))
    (shapeCast S2000000x1 (perU (m ((c : Thread nD τ).loc main_arg1)) (m ((c : Thread nD τ).loc main_arg4)))
      Facts₀.shapeCasts_S2000000_S2000000x1)

/-- The kernel program's weight of every edge. -/
def weightsK (c : Dev nD) : (⟨S2000000, .f32⟩ : BufTy).Contents (Elt Ideal) :=
  mulf (F := Ideal) (s := S2000000) (φ := .f32)
    (shapeCast S2000000 (rawK m c) Facts₀.shapeCasts_S2000000x1_S2000000)
    (invDeg (m ((c : Thread nD τ).loc main_arg2)) (m ((c : Thread nD τ).loc main_arg3))
      (m ((c : Thread nD τ).loc main_arg4)) (m ((c : Thread nD τ).loc main_arg5)))

/-- The lines after the region at any valuation whose six buffers are known. -/
theorem tail_of (Wv : Valuation τ sig (Elt Ideal))
    {A43 : (⟨S2000000x1, .f32⟩ : BufTy).Contents (Elt Ideal)} {A41 : (⟨S2000000, .f32⟩ : BufTy).Contents (Elt Ideal)}
    {A8 A15 : (⟨S2000000x64, .f32⟩ : BufTy).Contents (Elt Ideal)} {A4 A5 : (⟨S2000000, .i32⟩ : BufTy).Contents (Elt Ideal)}
    (h43 : Wv (Proc.devRef .tc main_v43) = A43) (h41 : Wv (Proc.devRef .tc main_v41) = A41)
    (h8 : Wv (Proc.devRef .tc main_v8) = A8) (h15 : Wv (Proc.devRef .tc main_v15) = A15)
    (h4 : Wv (Proc.devRef .tc main_arg4) = A4) (h5 : Wv (Proc.devRef .tc main_arg5) = A5) :
    StableHlo.after (hostOps1 (F := Ideal)) Wv (Proc.devRef .tc main_v57)
      = tail (mulf (F := Ideal) (s := S2000000) (φ := .f32) (shapeCast S2000000 A43 Facts₀.shapeCasts_S2000000x1_S2000000) A41)
          A8 A15 A4 A5 := by
  rw [post_v57, h43, h41, h8, h15, h4, h5]

/-- The result buffer after the lines that follow the region. -/
theorem tail_value (c : Dev nD) :
    Pipeline.afterTail₀ cfgs (dats m) 0 (V0 m) [hostOps1] c main_v57
      = tail (weightsK m c) (gatherU (m ((c : Thread nD τ).loc main_arg0)) (m ((c : Thread nD τ).loc main_arg4)))
          (gatherI (m ((c : Thread nD τ).loc main_arg0)) (m ((c : Thread nD τ).loc main_arg5)))
          (m ((c : Thread nD τ).loc main_arg4)) (m ((c : Thread nD τ).loc main_arg5)) := by
  unfold Pipeline.afterTail₀
  show StableHlo.after hostOps1 _ (Proc.devRef .tc main_v57) = _
  refine tail_of _ ?_ ?_ ?_ ?_ ?_ ?_
  · refine (Pipeline.withArrays_arr spec0 launch0.win.arr_inj c _ _ 3).trans ?_
    refine (final3 m c).trans ?_
    rw [V_v8, V_v15, V_v42]
    rfl
  · refine (Pipeline.withArrays_of_ne spec0 c (V0 m c) _ main_v41 (by decide)).trans ?_
    exact V_v41 m c
  · refine (Pipeline.withArrays_arr spec0 launch0.win.arr_inj c _ _ 0).trans ?_
    refine ((dats m 0 c).arrAt_in 0 rfl _).trans ?_
    exact (A_eq m c 0).trans (V_v8 m c)
  · refine (Pipeline.withArrays_arr spec0 launch0.win.arr_inj c _ _ 1).trans ?_
    refine ((dats m 0 c).arrAt_in 1 rfl _).trans ?_
    exact (A_eq m c 1).trans (V_v15 m c)
  · refine (Pipeline.withArrays_of_ne spec0 c (V0 m c) _ main_arg4 (by decide)).trans ?_
    exact V_main_arg4 m c
  · refine (Pipeline.withArrays_of_ne spec0 c (V0 m c) _ main_arg5 (by decide)).trans ?_
    exact V_main_arg5 m c

/-! ## The run -/

/-- Every weakly fair execution of the kernel program terminates with its result at the tail of the kernel's weights and
    the arguments unchanged. -/
theorem run : θ_run defs (onTc (τ := τ) (main (F := Ideal))) ⟨m, fun _ => 0, ρ⟩ (fun r => ∀ c : Dev nD,
      r.2.mem ((c.tc : Thread nD τ).loc main_v57)
        = tail (weightsK m c) (gatherU (m ((c.tc : Thread nD τ).loc main_arg0)) (m ((c.tc : Thread nD τ).loc main_arg4)))
            (gatherI (m ((c.tc : Thread nD τ).loc main_arg0)) (m ((c.tc : Thread nD τ).loc main_arg5)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v57 (Pipeline.mem_restRefs_of main_v57 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.LibGatherRows.lean ====
/-
  Reading a row gather at an index.

  `x[idx]` of a matrix `x : [N, C]` at an integer vector `idx : [E]` lowers to a gather with the start indices
  laid out as `[E, 1]`: offset axis 1, collapsed axis 0, the start index map `[0]`, slices of one whole row.
  The element `(e, k)` of the result is the operand's element `(r, k)`, where the row `r` is the start index
  `idx[e, 0]` read as a signed integer and clamped into `[0, N - 1]`. In particular the row depends on `e` only and
  the column is kept, which is what a row-wise reduction of gathered rows needs.
-/
import Idealize.ShloMosaic.Lib.ValueIdx

noncomputable section

namespace Idealize.ShloMosaic.GatherRows

open Idealize.ShloMosaic Idealize.ShloMosaic.ValueIdx

variable {α : Type}

/-- The dimension numbers of a row gather: operand `[N, C]`, start indices `[E, 1]`, result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that edge `e` selects: its start index read signed, clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- On the row axis the slice starts at the clamped start index. -/
theorem rowDims_start_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (0 : Fin 2) = min (idx (ix2 e (0 : Fin 1))).toInt.toNat (N - 1) := by
  unfold GatherDims.start
  rw [dif_pos (show (0 : Fin 2) ∈ (rowDims N E C wf).startIndexMap from List.mem_singleton.mpr rfl)]
  have hsi : (rowDims N E C wf).siIdx (ix2 e k) ⟨List.idxOf (0 : Fin 2) (rowDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the slice starts at zero: the start index map does not name it. -/
theorem rowDims_start_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (1 : Fin 2) = 0 := by
  unfold GatherDims.start
  rw [dif_neg (fun h => absurd (congrArg Fin.val (List.mem_singleton.mp h)) Nat.one_ne_zero)]

/-- The offset coordinate on the column axis is the result's column. -/
theorem rowDims_off_col {N E C : Nat}
    (wf : GatherDims.WF ⟨2, ![N, C]⟩ ⟨2, ![E, 1]⟩ ⟨2, ![E, C]⟩ [1] [0] [] [0] [] 1 ![1, C])
    (e : Fin E) (k : Fin C) :
    (rowDims N E C wf).offCoord (ix2 e k) (1 : Fin 2) = k.val := by
  unfold GatherDims.offCoord
  rw [dif_pos ((GatherDims.mem_sKept _ _).mpr ⟨fun h => absurd (congrArg Fin.val (List.mem_singleton.mp h)) Nat.one_ne_zero, List.not_mem_nil⟩)]
  rfl

/-- The operand index of result element `(e, k)` is `(rowOf e, k)`. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).operandIdx (ix2 e k) idx = ix2 (rowOf hN idx e) k := by
  funext a
  refine Fin.ext ?_
  match a with
  | ⟨0, _⟩ =>
    show (rowDims N E C wf).start (ix2 e k) idx (0 : Fin 2) + (rowDims N E C wf).batchCoord (ix2 e k) (0 : Fin 2)
      + (rowDims N E C wf).offCoord (ix2 e k) (0 : Fin 2) = min (idx (ix2 e (0 : Fin 1))).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, rowDims_start_row]
  | ⟨1, _⟩ =>
    show (rowDims N E C wf).start (ix2 e k) idx (1 : Fin 2) + (rowDims N E C wf).batchCoord (ix2 e k) (1 : Fin 2)
      + (rowDims N E C wf).offCoord (ix2 e k) (1 : Fin 2) = k.val
    rw [GatherDims.batchCoord_eq_zero _ _ _ List.not_mem_nil, Nat.add_zero, rowDims_start_col, Nat.zero_add,
      rowDims_off_col]

/-- THE ROW GATHER READ AT `(e, k)`: the operand's element `(rowOf e, k)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N E C wf) x idx (ix2 e k) = x (ix2 (rowOf hN idx e) k) := by
  unfold Host.gather
  rw [rowDims_operandIdx hN wf idx e k]

end Idealize.ShloMosaic.GatherRows

end
-- ==== Proof.EdgeRows.lean ====
/-
  The gathered rows, read at an index.

  Edge `e` selects user `userOf u e` and item `itemOf i e` among the 150000 nodes: the start index read signed,
  wrapped if negative, clamped into the table, and for an item moved past the 100000 users. The user row of edge
  `e` is row `userOf u e` of `x`, whatever pointwise thing was done to `x` before or after the gather; this is what
  lets one program normalise the table and gather, and the other gather and normalise.
-/
import proofs.«110566_j45853070852235_2_alg».proof.Proof.Edges
import proofs.«110566_j45853070852235_2_alg».proof.Proof.LibGatherRows
import Idealize.ShloMosaic.Lib.Pipeline.Value

noncomputable section

namespace Cert.Edges

open Idealize.ShloMosaic Idealize.ShloMosaic.ValueIdx Idealize.ShloMosaic.GatherRows
open Cert.KernelIdeal Cert.KernelIdeal.Facts₀

/-- The row of the user table edge `e` reads. -/
def urow (u : (⟨S2000000, .i32⟩ : BufTy).Contents (Elt Ideal)) (e : Fin 2000000) : Fin 100000 :=
  rowOf (N := 100000) (by decide) (idxU u) e

/-- The row of the item table edge `e` reads. -/
def irow (i : (⟨S2000000, .i32⟩ : BufTy).Contents (Elt Ideal)) (e : Fin 2000000) : Fin 50000 :=
  rowOf (N := 50000) (by decide) (idxI i) e

/-- The node that is edge `e`'s user. -/
def userOf (u : (⟨S2000000, .i32⟩ : BufTy).Contents (Elt Ideal)) (e : Fin 2000000) : Fin 150000 :=
  ⟨(urow u e).val, by have := (urow u e).isLt; omega⟩

/-- The node that is edge `e`'s item. -/
def itemOf (i : (⟨S2000000, .i32⟩ : BufTy).Contents (Elt Ideal)) (e : Fin 2000000) : Fin 150000 :=
  ⟨100000 + (irow i e).val, by have := (irow i e).isLt; omega⟩

theorem rowsU_apply (t : (⟨S100000x64, .f32⟩ : BufTy).Contents (Elt Ideal)) (u : (⟨S2000000, .i32⟩ : BufTy).Contents (Elt Ideal))
    (e : Fin 2000000) (k : Fin 64) : rowsU t u (ix2 e k) = t (ix2 (urow u e) k) :=
  gather_rows_apply (N := 100000) (E := 2000000) (C := 64) (by decide)
    gather_S100000x64_S2000000x1_S2000000x64_1_0_n_n_0_1_164.wf t (idxU u) e k

theorem rowsI_apply (t : (⟨S50000x64, .f32⟩ : BufTy).Contents (Elt Ideal)) (i : (⟨S2000000, .i32⟩ : BufTy).Contents (Elt Ideal))
    (e : Fin 2000000) (k : Fin 64) : rowsI t i (ix2 e k) = t (ix2 (irow i e) k) :=
  gather_rows_apply (N := 50000) (E := 2000000) (C := 64) (by decide)
    gather_S50000x64_S2000000x1_S2000000x64_1_0_n_n_0_1_164.wf t (idxI i) e k

theorem usersOf_apply (x : (⟨S150000x64, .f32⟩ : BufTy).Contents (Elt Ideal)) (r : Fin 100000) (k : Fin 64) :
    usersOf x (ix2 r k) = x (ix2 (⟨r.val, by have := r.isLt; omega⟩ : Fin 150000) k) :=
  extractStridedSlice_apply ![0, 0] x slices_S150000x64_S100000x64_0_0 (ix2 r k) _ (fun a => match a with
    | ⟨0, _⟩ => by show r.val = 0 + r.val; omega
    | ⟨1, _⟩ => by show k.val = 0 + k.val; omega)

theorem itemsOf_apply (x : (⟨S150000x64, .f32⟩ : BufTy).Contents (Elt Ideal)) (r : Fin 50000) (k : Fin 64) :
    itemsOf x (ix2 r k) = x (ix2 (⟨100000 + r.val, by have := r.isLt; omega⟩ : Fin 150000) k) :=
  extractStridedSlice_apply ![100000, 0] x slices_S150000x64_S50000x64_100000_0 (ix2 r k) _ (fun a => match a with
    | ⟨0, _⟩ => by show 100000 + r.val = 100000 + r.val; rfl
    | ⟨1, _⟩ => by show k.val = 0 + k.val; omega)

/-- The user row of edge `e`, entry `k`. -/
theorem gatherU_apply (x : (⟨S150000x64, .f32⟩ : BufTy).Contents (Elt Ideal)) (u : (⟨S2000000, .i32⟩ : BufTy).Contents (Elt Ideal))
    (e : Fin 2000000) (k : Fin 64) : gatherU x u (ix2 e k) = x (ix2 (userOf u e) k) := by
  unfold gatherU
  rw [rowsU_apply, usersOf_apply]
  rfl

/-- The item row of edge `e`, entry `k`. -/
theorem gatherI_apply (x : (⟨S150000x64, .f32⟩ : BufTy).Contents (Elt Ideal)) (i : (⟨S2000000, .i32⟩ : BufTy).Contents (Elt Ideal))
    (e : Fin 2000000) (k : Fin 64) : gatherI x i (ix2 e k) = x (ix2 (itemOf i e) k) := by
  unfold gatherI
  rw [rowsI_apply, itemsOf_apply]
  rfl

end Cert.Edges

end
-- ==== Proof.KernelWeight.lean ====
/-
  The kernel program's weight of edge `e`: the raw weight of the edge's user row, item row and offset, times
  `1 / (√du · √di)` at the edge's degrees.
-/
import proofs.«110566_j45853070852235_2_alg».proof.Proof.KernelRun
import proofs.«110566_j45853070852235_2_alg».proof.Proof.EdgeRows

set_option maxRecDepth 16384

noncomputable section

open scoped BigOperators

namespace Cert.KernelRun

open Idealize.ShloMosaic Idealize.ShloMosaic.TcCoe Idealize.SL.Sem Idealize.ShloMosaic.ValueIdx
open Cert.KernelIdeal Cert.KernelIdeal.Gen Cert.Edges Cert.KernelBlocks Cert.EdgeWeight

/-- A column `[E, 1]` viewed as a vector `[E]`, at `e`. -/
theorem col_as_vec_apply {α : Type} (v : S2000000x1.Idx → α) (h : S2000000x1.ShapeCasts S2000000) (e : Fin 2000000) :
    shapeCast S2000000 v h (ix1 e) = v (ix2 e (0 : Fin 1)) :=
  shapeCast_apply v h (ix1 e) (ix2 e (0 : Fin 1)) (by
    rw [Shape.rowMajor_val_one, Shape.rowMajor_val_two]
    show e.val * 1 + 0 = e.val
    omega)

/-- A vector `[E]` viewed as a column `[E, 1]`, at `(e, 0)`. -/
theorem vec_as_col_apply {α : Type} (v : S2000000.Idx → α) (h : S2000000.ShapeCasts S2000000x1) (e : Fin 2000000) (z : Fin 1) :
    shapeCast S2000000x1 v h (ix2 e z) = v (ix1 e) :=
  shapeCast_apply v h (ix2 e z) (ix1 e) (by
    rw [Shape.rowMajor_val_one, Shape.rowMajor_val_two]
    have hz := z.isLt
    show e.val = e.val * 1 + z.val
    omega)

variable (m : (ℓ : Loc nD τ sig) → Buf (Elt Ideal) ℓ)

/-- THE KERNEL'S WEIGHT OF EDGE `e`. -/
theorem weightsK_apply (c : Dev nD) (e : Fin 2000000) :
    weightsK m c (ix1 e)
      = kernelWeight (fun k => m ((c : Thread nD τ).loc main_arg0) (ix2 (userOf (m ((c : Thread nD τ).loc main_arg4)) e) k))
          (fun k => m ((c : Thread nD τ).loc main_arg0) (ix2 (itemOf (m ((c : Thread nD τ).loc main_arg5)) e) k))
          (perU (m ((c : Thread nD τ).loc main_arg1)) (m ((c : Thread nD τ).loc main_arg4)) (ix1 e))
          (perU (m ((c : Thread nD τ).loc main_arg2)) (m ((c : Thread nD τ).loc main_arg4)) (ix1 e))
          (perI (m ((c : Thread nD τ).loc main_arg3)) (m ((c : Thread nD τ).loc main_arg5)) (ix1 e)) := by
  unfold weightsK kernelWeight
  rw [mulf_apply, col_as_vec_apply]
  unfold rawK rawColumn
  rw [vec_as_col_apply]
  simp only [gatherU_apply, gatherI_apply]
  rfl

end Cert.KernelRun

end
-- ==== Proof.RefRead.lean ====
/-
  The reference program, read: its result is the common tail at the reference's per-edge weights, and the
  reference's weight of edge `e` is the weight with the rows normalised first.

  The reference divides every row of `x` by its clamped norm, gathers the normalised user and item rows per edge, sums
  their products, subtracts the user's offset, takes `4σ(1 − σ)` with `σ = 1 / (1 + e^{-s})`, divides by `√du[u]` and
  then by `√di[i]`, and runs the tail on the gathered raw rows. Gathering a row of the normalised table is
  normalising the gathered row, because a gather reads one element of its operand.
-/
import proofs.«110566_j45853070852235_2_alg».proof.Proof.Gen.ReferenceIdeal.Read
import proofs.«110566_j45853070852235_2_alg».proof.Proof.EdgeRows
import proofs.«110566_j45853070852235_2_alg».proof.Proof.Algebra

set_option maxRecDepth 16384

noncomputable section

open scoped BigOperators

namespace Cert.RefRead

open Idealize.ShloMosaic Idealize.ShloMosaic.TcCoe Idealize.SL.Sem Idealize.ShloMosaic.ValueIdx
open Cert.ReferenceIdeal Cert.ReferenceIdeal.Read Cert.Edges Cert.EdgeWeight

/-! ## The reference's stages are the shared functions -/

theorem v15_eq (x0 : (⟨S150000x64, .f32⟩ : BufTy).Contents (Elt Ideal)) (x4 : (⟨S2000000, .i32⟩ : BufTy).Contents (Elt Ideal)) :
    val_main_v15 (F := Ideal) x0 x4 = rowsU (usersOf (val_main_v6 (F := Ideal) x0)) x4 := rfl
theorem v22_eq (x0 : (⟨S150000x64, .f32⟩ : BufTy).Contents (Elt Ideal)) (x5 : (⟨S2000000, .i32⟩ : BufTy).Contents (Elt Ideal)) :
    val_main_v22 (F := Ideal) x0 x5 = rowsI (itemsOf (val_main_v6 (F := Ideal) x0)) x5 := rfl
theorem v31_eq (x1 : (⟨S100000, .f32⟩ : BufTy).Contents (Elt Ideal)) (x4 : (⟨S2000000, .i32⟩ : BufTy).Contents (Elt Ideal)) :
    val_main_v31 (F := Ideal) x1 x4 = perU x1 x4 := rfl
theorem v50_eq (x2 : (⟨S100000, .f32⟩ : BufTy).Contents (Elt Ideal)) (x4 : (⟨S2000000, .i32⟩ : BufTy).Contents (Elt Ideal)) :
    val_main_v50 (F := Ideal) x2 x4 = perU x2 x4 := rfl
theorem v59_eq (x3 : (⟨S50000, .f32⟩ : BufTy).Contents (Elt Ideal)) (x5 : (⟨S2000000, .i32⟩ : BufTy).Contents (Elt Ideal)) :
    val_main_v59 (F := Ideal) x3 x5 = perI x3 x5 := rfl
theorem v81_eq (x0 : (⟨S150000x64, .f32⟩ : BufTy).Contents (Elt Ideal)) (x4 : (⟨S2000000, .i32⟩ : BufTy).Contents (Elt Ideal)) :
    val_main_v81 (F := Ideal) x0 x4 = gatherU x0 x4 := rfl
theorem v69_eq (x0 : (⟨S150000x64, .f32⟩ : BufTy).Contents (Elt Ideal)) (x5 : (⟨S2000000, .i32⟩ : BufTy).Contents (Elt Ideal)) :
    val_main_v69 (F := Ideal) x0 x5 = gatherI x0 x5 := rfl

/-- The reference's result is the common tail at its weights. -/
theorem result_eq (x0 : (⟨S150000x64, .f32⟩ : BufTy).Contents (Elt Ideal)) (x1 x2 : (⟨S100000, .f32⟩ : BufTy).Contents (Elt Ideal))
    (x3 : (⟨S50000, .f32⟩ : BufTy).Contents (Elt Ideal)) (x4 x5 : (⟨S2000000, .i32⟩ : BufTy).Contents (Elt Ideal)) :
    val_main_v87 (F := Ideal) x0 x1 x2 x3 x4 x5
      = tail (val_main_v61 (F := Ideal) x0 x1 x2 x3 x4 x5) (gatherU x0 x4) (gatherI x0 x5) x4 x5 := by
  rw [← v81_eq, ← v69_eq]
  rfl

/-! ## A row of the normalised table -/

/-- Entry `k` of node `n`'s normalised row: the entry over the row's clamped norm. -/
theorem znode (x0 : (⟨S150000x64, .f32⟩ : BufTy).Contents (Elt Ideal)) (n : Fin 150000) (k : Fin 64) :
    val_main_v6 (F := Ideal) x0 (ix2 n k) = Ideal.div (x0 (ix2 n k)) (cnorm (fun k' => x0 (ix2 n k'))) := by
  have hi : ∀ k' : Fin 64, idx_main_call0_v1 (idx_main_call0_v2 (idx_main_v5 (ix2 n k))) k' = ix2 n k' := fun k' =>
    funext fun a => Fin.ext (by match a with | ⟨0, _⟩ => rfl | ⟨1, _⟩ => rfl)
  rw [val_main_v6_apply, val_main_v5_apply, val_main_v4_apply, val_main_v3_apply, val_main_cst_apply, val_main_v2_apply,
    val_main_call0_v2_apply, val_main_call0_v1_apply, val_main_call0_cst_apply]
  simp only [val_main_call0_v0_apply, hi, Ideal.hostDivf_def, Ideal.maximumf_def, Ideal.hostUnary_sqrt_def, Ideal.ofBits_def,
    Ideal.mulf_def, Ideal.ofBits_zero_f32, zero_add]
  rfl

/-! ## The reference's weight of an edge -/

/-- THE REFERENCE'S WEIGHT OF EDGE `e`. -/
theorem weight_apply (x0 : (⟨S150000x64, .f32⟩ : BufTy).Contents (Elt Ideal)) (x1 x2 : (⟨S100000, .f32⟩ : BufTy).Contents (Elt Ideal))
    (x3 : (⟨S50000, .f32⟩ : BufTy).Contents (Elt Ideal)) (x4 x5 : (⟨S2000000, .i32⟩ : BufTy).Contents (Elt Ideal)) (e : Fin 2000000) :
    val_main_v61 (F := Ideal) x0 x1 x2 x3 x4 x5 (ix1 e)
      = referenceWeight (fun k => x0 (ix2 (userOf x4 e) k)) (fun k => x0 (ix2 (itemOf x5 e) k))
          (perU x1 x4 (ix1 e)) (perU x2 x4 (ix1 e)) (perI x3 x5 (ix1 e)) := by
  have hi : ∀ k : Fin 64, idx_main_v24 (ix1 e) k = ix2 e k := fun k =>
    funext fun a => Fin.ext (by match a with | ⟨0, _⟩ => rfl | ⟨1, _⟩ => rfl)
  have hu : ∀ k : Fin 64, val_main_v15 (F := Ideal) x0 x4 (ix2 e k)
      = Ideal.div (x0 (ix2 (userOf x4 e) k)) (cnorm (fun k' => x0 (ix2 (userOf x4 e) k'))) := fun k => by
    rw [v15_eq, rowsU_apply, usersOf_apply]; exact znode x0 _ k
  have hv : ∀ k : Fin 64, val_main_v22 (F := Ideal) x0 x5 (ix2 e k)
      = Ideal.div (x0 (ix2 (itemOf x5 e) k)) (cnorm (fun k' => x0 (ix2 (itemOf x5 e) k'))) := fun k => by
    rw [v22_eq, rowsI_apply, itemsOf_apply]; exact znode x0 _ k
  rw [val_main_v61_apply, val_main_v60_apply, val_main_v52_apply, val_main_v51_apply, val_main_v43_apply, val_main_v40_apply,
    val_main_v42_apply, val_main_v39_apply, val_main_cst_8_apply, val_main_v41_apply, val_main_cst_9_apply, val_main_v38_apply,
    val_main_v37_apply, val_main_cst_7_apply, val_main_v36_apply, val_main_v35_apply, val_main_cst_6_apply, val_main_v34_apply,
    val_main_v33_apply, val_main_v32_apply, val_main_v24_apply, val_main_cst_3_apply, v31_eq, v50_eq, v59_eq]
  simp only [hi, val_main_v23_apply, hu, hv, Ideal.hostDivf_def, Ideal.hostUnary_sqrt_def, Ideal.hostUnary_exp_def,
    Ideal.hostNegf_def, Ideal.negf_def, Ideal.ofBits_def, Ideal.mulf_def, Ideal.subf_def, Ideal.addf_def,
    Ideal.ofBits_zero_f32, zero_add]
  rfl

end Cert.RefRead

end
-- ==== Proof.PreDecode.lean ====
/-
  The precondition, read back: every entry of `x` is a real number, and every degree in `du` and `di` is a
  positive real number.

  The precondition is a conjunction of six `all`s: `|x| < +∞`, `|beta| < +∞`, `|du| < +∞`, `|di| < +∞`, `du > 0`,
  `di > 0`. An extended real whose absolute value is below `+∞` is a real; a real above `0` is positive.
-/
import proofs.«110566_j45853070852235_2_alg».proof.Pre_finite_inputs
import proofs.«110566_j45853070852235_2_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Facts

instance : Subsingleton S_.Idx := ⟨fun _ _ => funext fun d => d.elim0⟩

/-- The pattern of `+∞`. -/
theorem top32 : Ideal.ofBits .f32 0x7F800000#32 = ⊤ := by simp [Ideal.ofBits, Ideal.ieee]

/-- An extended real whose absolute value is below `+∞` is a real. -/
theorem real_of_abs_lt_top {x : EReal} (h : Ideal.cmp .olt (max x (-x)) (Ideal.ofBits .f32 0x7F800000#32) = 1#1) :
    ∃ r : ℝ, x = (r : EReal) := by
  rw [top32] at h
  induction x using EReal.rec
  · exfalso; simp [Ideal.cmp] at h
  · exact ⟨_, rfl⟩
  · exfalso; simp [Ideal.cmp] at h

/-- A real above the pattern of `0.0` is positive. -/
theorem pos_of_gt_zero {x : EReal} (hx : ∃ r : ℝ, x = (r : EReal))
    (h : Ideal.cmp .ogt x (Ideal.ofBits .f32 0x00000000#32) = 1#1) : ∃ r : ℝ, 0 < r ∧ x = (r : EReal) := by
  obtain ⟨r, rfl⟩ := hx
  rw [Ideal.ofBits_zero_f32] at h
  refine ⟨r, ?_, rfl⟩
  simp [Ideal.cmp] at h
  by_contra hn
  simp [hn] at h

/-- THE PRECONDITION READ BACK. -/
theorem decode (x : FVec Ideal S150000x64 .f32) (beta du : FVec Ideal S100000 .f32) (di : FVec Ideal S50000 .f32)
    (u i : IVec S2000000 32) (h : fn (F := Ideal) x beta du di u i = fun _ => 1#1) :
    (∀ j, ∃ r : ℝ, x j = (r : EReal)) ∧ (∀ j, ∃ r : ℝ, 0 < r ∧ du j = (r : EReal))
      ∧ (∀ j, ∃ r : ℝ, 0 < r ∧ di j = (r : EReal)) := by
  have h0 := congrFun h ix0
  dsimp only [fn, fn_part1] at h0
  obtain ⟨h5, hdi⟩ := IntOp.andi_eq_one.mp (show IntOp.andi _ _ = 1#1 from h0)
  obtain ⟨h4, hdu⟩ := IntOp.andi_eq_one.mp (show IntOp.andi _ _ = 1#1 from h5)
  obtain ⟨h3, hdif⟩ := IntOp.andi_eq_one.mp (show IntOp.andi _ _ = 1#1 from h4)
  obtain ⟨h2, hduf⟩ := IntOp.andi_eq_one.mp (show IntOp.andi _ _ = 1#1 from h3)
  obtain ⟨hx, -⟩ := IntOp.andi_eq_one.mp (show IntOp.andi _ _ = 1#1 from h2)
  have fx : ∀ j, ∃ r : ℝ, x j = (r : EReal) := fun j =>
    real_of_abs_lt_top (Host.reduce_andi_all _ _ _ _ ix0 hx j)
  have fdu : ∀ j, ∃ r : ℝ, du j = (r : EReal) := fun j =>
    real_of_abs_lt_top (Host.reduce_andi_all _ _ _ _ ix0 hduf j)
  have fdi : ∀ j, ∃ r : ℝ, di j = (r : EReal) := fun j =>
    real_of_abs_lt_top (Host.reduce_andi_all _ _ _ _ ix0 hdif j)
  exact ⟨fx, fun j => pos_of_gt_zero (fdu j) (Host.reduce_andi_all _ _ _ _ ix0 hdu j),
    fun j => pos_of_gt_zero (fdi j) (Host.reduce_andi_all _ _ _ _ ix0 hdi j)⟩

end Cert.PreDecode

end
-- ==== Proof.lean ====
/-
  Message passing on a bipartite user–item graph: the fused kernel program against the plain reference, as
  extended reals.

  Both programs compute, for each of the 2000000 edges `(u, i)`, a weight `w` from the user's row `p` and the item's
  row `q` of `x` (64 entries each), the user's offset `beta[u]` and the two degrees, and then sum `w · q` into the user
  and `w · p` into the item. With `cp = max(‖p‖, ε)`, `cq = max(‖q‖, ε)` and `s = cos − beta[u]`, the weight is
  `4 σ(s) (1 − σ(s)) / (√du[u] · √di[i])`.

  The kernel program gathers the raw rows and, inside its one region, computes `cos = (Σ p·q) / (cp · cq)` and the
  raw weight for 5000 edges per grid point; after the region it multiplies by `1 / (√du · √di)`. The reference
  normalises every row of `x` first, gathers, and takes `cos = Σ (p/cp)·(q/cq)`; it divides the weight by `√du` and then
  by `√di`. The scatter-add tail is the same function of the weights in both programs and is never opened.

  The two weights agree when the rows of `x` are finite — then `cp, cq` are positive reals and the quotient moves
  across the finite sum — and when the degrees are positive reals, the domain on which the reference's division by
  `√du`, `√di` is defined; on a zero or negative degree the two arrangements of the division differ (one gives `+∞`
  where the other gives `0`), which is why the precondition asks for positive degrees.
-/
import proofs.«110566_j45853070852235_2_alg».proof.Defs
import proofs.«110566_j45853070852235_2_alg».proof.Proof.Gen.Kernel
import proofs.«110566_j45853070852235_2_alg».proof.Proof.Gen.Kernel.Skeleton
import proofs.«110566_j45853070852235_2_alg».proof.Proof.Gen.Kernel.Launch
import proofs.«110566_j45853070852235_2_alg».proof.Proof.Gen.Kernel.Points
import proofs.«110566_j45853070852235_2_alg».proof.Proof.Gen.Kernel.Frame
import proofs.«110566_j45853070852235_2_alg».proof.Proof.Gen.KernelIdeal
import proofs.«110566_j45853070852235_2_alg».proof.Proof.Gen.KernelIdeal.Skeleton
import proofs.«110566_j45853070852235_2_alg».proof.Proof.Gen.KernelIdeal.Launch
import proofs.«110566_j45853070852235_2_alg».proof.Proof.Gen.KernelIdeal.Points
import proofs.«110566_j45853070852235_2_alg».proof.Proof.Gen.KernelIdeal.Frame
import proofs.«110566_j45853070852235_2_alg».proof.Proof.Gen.ReferenceIdeal
import proofs.«110566_j45853070852235_2_alg».proof.Proof.Gen.Pre_finite_inputs
import proofs.«110566_j45853070852235_2_alg».proof.Proof.Gen.ReferenceIdeal.Run
import proofs.«110566_j45853070852235_2_alg».proof.Proof.Gen.ReferenceIdeal.Read
import proofs.«110566_j45853070852235_2_alg».proof.Proof.KernelWeight
import proofs.«110566_j45853070852235_2_alg».proof.Proof.RefRead
import proofs.«110566_j45853070852235_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end at the tail of one and the same vector of weights:
    edge by edge the kernel's weight is the reference's, by the law of the two arrangements, on finite rows and
    positive real degrees. -/
theorem algebraic : Cert.algebraic_KernelIdeal_ReferenceIdeal := by
  intro m ρ m' ρ' hpre hagree
  refine ⟨fun c => Cert.Edges.tail (Cert.KernelRun.weightsK m c)
      (Cert.Edges.gatherU (m ((c.tc : Thread Cert.KernelIdeal.nD Cert.KernelIdeal.τ).loc Cert.KernelIdeal.main_arg0))
        (m ((c.tc : Thread Cert.KernelIdeal.nD Cert.KernelIdeal.τ).loc Cert.KernelIdeal.main_arg4)))
      (Cert.Edges.gatherI (m ((c.tc : Thread Cert.KernelIdeal.nD Cert.KernelIdeal.τ).loc Cert.KernelIdeal.main_arg0))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, Cert.RefRead.result_eq]
  obtain ⟨a0, a1, a2, a3, a4, a5⟩ := hagree c
  rw [a0, a1, a2, a3, a4, a5]
  refine congrArg (fun w => Cert.Edges.tail w _ _ _ _) ?_
  funext j
  obtain ⟨e, rfl⟩ : ∃ e : Fin 2000000, j = ix1 e := ⟨j 0, eq_ix1 j⟩
  obtain ⟨fx, fdu, fdi⟩ := Cert.PreDecode.decode _ _ _ _ _ _ (hpre c)
  rw [Cert.RefRead.weight_apply, Cert.KernelRun.weightsK_apply]
  exact (Cert.EdgeWeight.weights_agree _ (fun _ => fx _) (fun _ => fx _) (fdu _) (fdi _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
